-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x512 : Shape := ⟨2, ![8192, 512]⟩
abbrev S8192x1024 : Shape := ⟨2, ![8192, 1024]⟩
abbrev S512x128 : Shape := ⟨2, ![512, 128]⟩
abbrev S512 : Shape := ⟨1, ![512]⟩
abbrev S128x512 : Shape := ⟨2, ![128, 512]⟩
abbrev S128 : Shape := ⟨1, ![128]⟩
abbrev S512x512 : Shape := ⟨2, ![512, 512]⟩
abbrev S1024x512 : Shape := ⟨2, ![1024, 512]⟩
abbrev S1024 : Shape := ⟨1, ![1024]⟩
abbrev S512x1024 : Shape := ⟨2, ![512, 1024]⟩
abbrev S1024x1024 : Shape := ⟨2, ![1024, 1024]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S512x512 : S_.BroadcastsInDim S512x512 (![] : Fin 0 → Fin S512x512.rank)
  reducesTo_S512x512_S_d0_1 : S512x512.ReducesTo [0, 1] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part6 {F : FTy → Type} [FloatOps F] (main_arg21 : FVec F S1024 .f32) (main_v98 : IVec S_ 1) (main_v101 : IVec S1024x1024 1) (main_c_39 : IVec S_ 1) : IVec S_ 1 :=
  let main_v102 : IVec S_ 1 := (fun x v => Host.reduce IntOp.andi x v reducesTo_S1024x1024_S_d0_1 h_S_) main_v101 main_c_39
  let main_v103 : IVec S_ 1 := andi main_v98 main_v102
  let main_v104 : FVec F S1024 .f32 := Host.absf main_arg21
  let main_cst_40 : FVec F S_ .f32 := constant S_ .f32 0x7F800000#32
  let main_v105 : FVec F S1024 .f32 := broadcastInDim S1024 ![] bcast_S_S1024 main_cst_40
  let main_v106 : IVec S1024 1 := cmpf .olt main_v104 main_v105
  let main_c_41 : IVec S_ 1 := constantI S_ 1 1#1
  let main_v107 : IVec S_ 1 := (fun x v => Host.reduce IntOp.andi x v reducesTo_S1024_S_d0 h_S_) main_v106 main_c_41
  let main_v108 : IVec S_ 1 := andi main_v103 main_v107
  main_v108

def fn_part5 {F : FTy → Type} [FloatOps F] (main_arg18 : FVec F S512x1024 .f32) (main_arg19 : FVec F S512 .f32) (main_arg20 : FVec F S1024x1024 .f32) (main_arg21 : FVec F S1024 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512x1024 .f32 := Host.absf main_arg18
  let main_cst_34 : FVec F S_ .f32 := constant S_ .f32 0x7F800000#32
  let main_v90 : FVec F S512x1024 .f32 := broadcastInDim S512x1024 ![] bcast_S_S512x1024 main_cst_34
  let main_v91 : IVec S512x1024 1 := cmpf .olt main_v89 main_v90
  let main_c_35 : IVec S_ 1 := constantI S_ 1 1#1
  let main_v92 : IVec S_ 1 := (fun x v => Host.reduce IntOp.andi x v reducesTo_S512x1024_S_d0_1 h_S_) main_v91 main_c_35
  let main_v93 : IVec S_ 1 := andi main_v88 main_v92
  let main_v94 : FVec F S512 .f32 := Host.absf main_arg19
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  let main_v99 : FVec F S1024x1024 .f32 := Host.absf main_arg20
  let main_cst_38 : FVec F S_ .f32 := constant S_ .f32 0x7F800000#32
  let main_v100 : FVec F S1024x1024 .f32 := broadcastInDim S1024x1024 ![] bcast_S_S1024x1024 main_cst_38
  let main_v101 : IVec S1024x1024 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S1024x512 .f32) (main_arg15 : FVec F S1024 .f32) (main_arg16 : FVec F S512x512 .f32) (main_arg17 : FVec F S512 .f32) (main_arg18 : FVec F S512x1024 .f32) (main_arg19 : FVec F S512 .f32) (main_arg20 : FVec F S1024x1024 .f32) (main_arg21 : FVec F S1024 .f32) (main_v63 : IVec S_ 1) (main_v67 : IVec S_ 1) : IVec S_ 1 :=
  let main_v68 : IVec S_ 1 := andi main_v63 main_v67
  let main_v69 : FVec F S1024x512 .f32 := Host.absf main_arg14
  let main_cst_26 : FVec F S_ .f32 := constant S_ .f32 0x7F800000#32
  let main_v70 : FVec F S1024x512 .f32 := broadcastInDim S1024x512 ![] bcast_S_S1024x512 main_cst_26
  let main_v71 : IVec S1024x512 1 := cmpf .olt main_v69 main_v70
  let main_c_27 : IVec S_ 1 := constantI S_ 1 1#1
  let main_v72 : IVec S_ 1 := (fun x v => Host.reduce IntOp.andi x v reducesTo_S1024x512_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S512x512 .f32 := Host.absf main_arg16
  let main_cst_30 : FVec F S_ .f32 := constant S_ .f32 0x7F800000#32
  let main_v80 : FVec F S512x512 .f32 := broadcastInDim S512x512 ![] bcast_S_S512x512 main_cst_30
  let main_v81 : IVec S512x512 1 := cmpf .olt main_v79 main_v80
  let main_c_31 : IVec S_ 1 := constantI S_ 1 1#1
  let main_v82 : IVec S_ 1 := (fun x v => Host.reduce IntOp.andi x v reducesTo_S512x512_S_d0_1 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S512 .f32) (main_arg12 : FVec F S512x512 .f32) (main_arg13 : FVec F S512 .f32) (main_arg14 : FVec F S1024x512 .f32) (main_arg15 : FVec F S1024 .f32) (main_arg16 : FVec F S512x512 .f32) (main_arg17 : FVec F S512 .f32) (main_arg18 : FVec F S512x1024 .f32) (main_arg19 : FVec F S512 .f32) (main_arg20 : FVec F S1024x1024 .f32) (main_arg21 : FVec F S1024 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S128 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_arg14 : FVec F S1024x512 .f32) (main_arg15 : FVec F S1024 .f32) (main_arg16 : FVec F S512x512 .f32) (main_arg17 : FVec F S512 .f32) (main_arg18 : FVec F S512x1024 .f32) (main_arg19 : FVec F S512 .f32) (main_arg20 : FVec F S1024x1024 .f32) (main_arg21 : FVec F S1024 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S512x128 .f32) (main_arg5 : FVec F S512 .f32) (main_arg6 : FVec F S128x512 .f32) (main_arg7 : FVec F S128 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_arg14 : FVec F S1024x512 .f32) (main_arg15 : FVec F S1024 .f32) (main_arg16 : FVec F S512x512 .f32) (main_arg17 : FVec F S512 .f32) (main_arg18 : FVec F S512x1024 .f32) (main_arg19 : FVec F S512 .f32) (main_arg20 : FVec F S1024x1024 .f32) (main_arg21 : FVec F S1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S128x512 .f32 := Host.absf main_arg6
  let main_cst_10 : FVec F S_ .f32 := constant S_ .f32 0x7F800000#32
  let main_v30 : FVec F S128x512 .f32 := broadcastInDim S128x512 ![] bcast_S_S128x512 main_cst_10
  let main_v31 : IVec S128x512 1 := cmpf .olt main_v29 main_v30
  let main_c_11 : IVec S_ 1 := constantI S_ 1 1#1
  let main_v32 : IVec S_ 1 := (fun x v => Host.reduce IntOp.andi x v reducesTo_S128x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S8192x128 .f32) (main_arg1 : FVec F S8192x512 .f32) (main_arg2 : FVec F S8192x512 .f32) (main_arg3 : FVec F S8192x1024 .f32) (main_arg4 : FVec F S512x128 .f32) (main_arg5 : FVec F S512 .f32) (main_arg6 : FVec F S128x512 .f32) (main_arg7 : FVec F S128 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_arg14 : FVec F S1024x512 .f32) (main_arg15 : FVec F S1024 .f32) (main_arg16 : FVec F S512x512 .f32) (main_arg17 : FVec F S512 .f32) (main_arg18 : FVec F S512x1024 .f32) (main_arg19 : FVec F S512 .f32) (main_arg20 : FVec F S1024x1024 .f32) (main_arg21 : FVec F S1024 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S8192x128 : Shape := ⟨2, ![8192, 128]⟩
abbrev S8192x512 : Shape := ⟨2, ![8192, 512]⟩
abbrev S8192x1024 : Shape := ⟨2, ![8192, 1024]⟩
abbrev S512x128 : Shape := ⟨2, ![512, 128]⟩
abbrev S512 : Shape := ⟨1, ![512]⟩
abbrev S128x512 : Shape := ⟨2, ![128, 512]⟩
abbrev S128 : Shape := ⟨1, ![128]⟩
abbrev S512x512 : Shape := ⟨2, ![512, 512]⟩
abbrev S1024x512 : Shape := ⟨2, ![1024, 512]⟩
abbrev S1024 : Shape := ⟨1, ![1024]⟩
abbrev S512x1024 : Shape := ⟨2, ![512, 1024]⟩
abbrev S1024x1024 : Shape := ⟨2, ![1024, 1024]⟩
abbrev S1x512 : Shape := ⟨2, ![1, 512]⟩
abbrev S1x128 : Shape := ⟨2, ![1, 128]⟩
abbrev S2048x128 : Shape := ⟨2, ![2048, 128]⟩
abbrev S2048x512 : Shape := ⟨2, ![2048, 512]⟩

abbrev nBuf : Space → Nat
  | .hbm => 27
  | .vmem => 16
  | .smem => 0
  | _ => 0

abbrev bufTy : (tb : Table) → Fin (tcTables nBuf tb) → BufTy
  | .hbm, ⟨0, _⟩ => ⟨S8192x128, .f32⟩
  | .hbm, ⟨1, _⟩ => ⟨S8192x512, .f32⟩
  | .hbm, ⟨2, _⟩ => ⟨S8192x512, .f32⟩
  | .hbm, ⟨3, _⟩ => ⟨S8192x1024, .f32⟩
  | .hbm, ⟨4, _⟩ => ⟨S512x128, .f32⟩
  | .hbm, ⟨5, _⟩ => ⟨S512, .f32⟩
  | .hbm, ⟨6, _⟩ => ⟨S128x512, .f32⟩
  | .hbm, ⟨7, _⟩ => ⟨S128, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S1024x512, .f32⟩
  | .hbm, ⟨15, _⟩ => ⟨S1024, .f32⟩
  | .hbm, ⟨16, _⟩ => ⟨S512x512, .f32⟩
  | .hbm, ⟨17, _⟩ => ⟨S512, .f32⟩
  | .hbm, ⟨18, _⟩ => ⟨S512x1024, .f32⟩
  | .hbm, ⟨19, _⟩ => ⟨S512, .f32⟩
  | .hbm, ⟨20, _⟩ => ⟨S1024x1024, .f32⟩
  | .hbm, ⟨21, _⟩ => ⟨S1024, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S1x128, .f32⟩
  | .hbm, ⟨26, _⟩ => ⟨S8192x128, .f32⟩
  | .local _ .vmem, ⟨0, _⟩ => ⟨S2048x128, .f32⟩
  | .local _ .vmem, ⟨1, _⟩ => ⟨S2048x128, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S512x128, .f32⟩
  | .local _ .vmem, ⟨7, _⟩ => ⟨S1x512, .f32⟩
  | .local _ .vmem, ⟨8, _⟩ => ⟨S512x512, .f32⟩
  | .local _ .vmem, ⟨9, _⟩ => ⟨S1x512, .f32⟩
  | .local _ .vmem, ⟨10, _⟩ => ⟨S512x512, .f32⟩
  | .local _ .vmem, ⟨11, _⟩ => ⟨S1x512, .f32⟩
  | .local _ .vmem, ⟨12, _⟩ => ⟨S128x512, .f32⟩
  | .local _ .vmem, ⟨13, _⟩ => ⟨S1x128, .f32⟩
  | .local _ .vmem, ⟨14, _⟩ => ⟨S2048x128, .f32⟩
  | .local _ .vmem, ⟨15, _⟩ => ⟨S2048x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S512_S1x512 : S512.ShapeCasts S1x512
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  inb_S2048x512_S2048x512_0_0 : ∀ a, (![0, 0] : Fin 2 → Nat) a + S2048x512.size a ≤ S2048x512.size a
  h_S2048x512 : 0 < S2048x512.numel
  inb_S512x128_S512x128_0_0 : ∀ a, (![0, 0] : Fin 2 → Nat) a + S512x128.size a ≤ S512x128.size a
  h_S512x128 : 0 < S512x128.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x512_S512x512_0_0 : ∀ a, (![0, 0] : Fin 2 → Nat) a + S512x512.size a ≤ S512x512.size a
  h_S512x512 : 0 < S512x512.numel
  inb_S128x512_S128x512_0_0 : ∀ a, (![0, 0] : Fin 2 → Nat) a + S128x512.size a ≤ S128x512.size a
  h_S128x512 : 0 < S128x512.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  dot_S2048x128_S512x128_S2048x512_1_1_0_0_n_n_wf : DotDims.WF S2048x128 S512x128 S2048x512 [1] [1] [0] [0] [] []
  dot_S2048x512_S512x512_S2048x512_1_1_0_0_n_n_wf : DotDims.WF S2048x512 S512x512 S2048x512 [1] [1] [0] [0] [] []
  dot_S2048x512_S128x512_S2048x128_1_1_0_0_n_n_wf : DotDims.WF S2048x512 S128x512 S2048x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x512.size a
  hwx0_1 : ∀ i : grid0.Coords, EltTy.bits .f32 = 32 ∨ (Rect.block (s := S8192x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S8192x512.size a
  hwx0_2 : ∀ i : grid0.Coords, EltTy.bits .f32 = 32 ∨ (Rect.block (s := S8192x512) S2048x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x512.size a ≤ S128x512.size a
  hwx0_9 : ∀ i : grid0.Coords, EltTy.bits .f32 = 32 ∨ (Rect.block (s := S128x512) S128x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x128.size a ≤ S8192x128.size a
  hwx0_11 : ∀ i : grid0.Coords, EltTy.bits .f32 = 32 ∨ (Rect.block (s := S8192x128) S2048x128.size (cc0_transform_11 i) (hinb0_11 i)).WholeWords (EltTy.packing .f32)

variable [Facts₀]

def dot_S2048x128_S512x128_S2048x512_1_1_0_0_n_n : DotDims S2048x128 S512x128 S2048x512 where
  lhsContracting := [1]
  rhsContracting := [1]
  lhsNonContracting := [0]
  rhsNonContracting := [0]
  lhsBatch := []
  rhsBatch := []
  wf := dot_S2048x128_S512x128_S2048x512_1_1_0_0_n_n_wf
def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf
def dot_S2048x512_S128x512_S2048x128_1_1_0_0_n_n : DotDims S2048x512 S128x512 S2048x128 where
  lhsContracting := [1]
  rhsContracting := [1]
  lhsNonContracting := [0]
  rhsNonContracting := [0]
  lhsBatch := []
  rhsBatch := []
  wf := dot_S2048x512_S128x512_S2048x128_1_1_0_0_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S128x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S2048x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192x512 : Shape := ⟨2, ![8192, 512]⟩
abbrev S8192x1024 : Shape := ⟨2, ![8192, 1024]⟩
abbrev S512x128 : Shape := ⟨2, ![512, 128]⟩
abbrev S512 : Shape := ⟨1, ![512]⟩
abbrev S128x512 : Shape := ⟨2, ![128, 512]⟩
abbrev S128 : Shape := ⟨1, ![128]⟩
abbrev S512x512 : Shape := ⟨2, ![512, 512]⟩
abbrev S1024x512 : Shape := ⟨2, ![1024, 512]⟩
abbrev S1024 : Shape := ⟨1, ![1024]⟩
abbrev S512x1024 : Shape := ⟨2, ![512, 1024]⟩
abbrev S1024x1024 : Shape := ⟨2, ![1024, 1024]⟩
abbrev S_ : Shape := ⟨0, ![]⟩
abbrev S1x512 : Shape := ⟨2, ![1, 512]⟩
abbrev S1x1024 : Shape := ⟨2, ![1, 1024]⟩
abbrev S1x128 : Shape := ⟨2, ![1, 128]⟩

abbrev nBuf : Space → Nat
  | .hbm => 97
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x512, .f32⟩
  | .hbm, ⟨2, _⟩ => ⟨S8192x512, .f32⟩
  | .hbm, ⟨3, _⟩ => ⟨S8192x1024, .f32⟩
  | .hbm, ⟨4, _⟩ => ⟨S512x128, .f32⟩
  | .hbm, ⟨5, _⟩ => ⟨S512, .f32⟩
  | .hbm, ⟨6, _⟩ => ⟨S128x512, .f32⟩
  | .hbm, ⟨7, _⟩ => ⟨S128, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S1024x512, .f32⟩
  | .hbm, ⟨15, _⟩ => ⟨S1024, .f32⟩
  | .hbm, ⟨16, _⟩ => ⟨S512x512, .f32⟩
  | .hbm, ⟨17, _⟩ => ⟨S512, .f32⟩
  | .hbm, ⟨18, _⟩ => ⟨S512x1024, .f32⟩
  | .hbm, ⟨19, _⟩ => ⟨S512, .f32⟩
  | .hbm, ⟨20, _⟩ => ⟨S1024x1024, .f32⟩
  | .hbm, ⟨21, _⟩ => ⟨S1024, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S512x512, .f32⟩
  | .hbm, ⟨26, _⟩ => ⟨S8192x512, .f32⟩
  | .hbm, ⟨27, _⟩ => ⟨S1x512, .f32⟩
  | .hbm, ⟨28, _⟩ => ⟨S8192x512, .f32⟩
  | .hbm, ⟨29, _⟩ => ⟨S8192x512, .f32⟩
  | .hbm, ⟨30, _⟩ => ⟨S512x512, .f32⟩
  | .hbm, ⟨31, _⟩ => ⟨S8192x512, .f32⟩
  | .hbm, ⟨32, _⟩ => ⟨S1x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S128x512, .f32⟩
  | .hbm, ⟨37, _⟩ => ⟨S8192x512, .f32⟩
  | .hbm, ⟨38, _⟩ => ⟨S1x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S_, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S8192x512, .f32⟩
  | .hbm, ⟨49, _⟩ => ⟨S8192x512, .f32⟩
  | .hbm, ⟨50, _⟩ => ⟨S512x512, .f32⟩
  | .hbm, ⟨51, _⟩ => ⟨S8192x512, .f32⟩
  | .hbm, ⟨52, _⟩ => ⟨S1x512, .f32⟩
  | .hbm, ⟨53, _⟩ => ⟨S8192x512, .f32⟩
  | .hbm, ⟨54, _⟩ => ⟨S8192x512, .f32⟩
  | .hbm, ⟨55, _⟩ => ⟨S1024x512, .f32⟩
  | .hbm, ⟨56, _⟩ => ⟨S8192x512, .f32⟩
  | .hbm, ⟨57, _⟩ => ⟨S1x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S512x512, .f32⟩
  | .hbm, ⟨62, _⟩ => ⟨S8192x512, .f32⟩
  | .hbm, ⟨63, _⟩ => ⟨S1x512, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S_, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S8192x512, .f32⟩
  | .hbm, ⟨72, _⟩ => ⟨S_, .f32⟩
  | .hbm, ⟨73, _⟩ => ⟨S8192x1024, .f32⟩
  | .hbm, ⟨74, _⟩ => ⟨S8192x1024, .f32⟩
  | .hbm, ⟨75, _⟩ => ⟨S1024x1024, .f32⟩
  | .hbm, ⟨76, _⟩ => ⟨S8192x1024, .f32⟩
  | .hbm, ⟨77, _⟩ => ⟨S1x1024, .f32⟩
  | .hbm, ⟨78, _⟩ => ⟨S8192x1024, .f32⟩
  | .hbm, ⟨79, _⟩ => ⟨S8192x1024, .f32⟩
  | .hbm, ⟨80, _⟩ => ⟨S512x1024, .f32⟩
  | .hbm, ⟨81, _⟩ => ⟨S8192x1024, .f32⟩
  | .hbm, ⟨82, _⟩ => ⟨S1x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S512x128, .f32⟩
  | .hbm, ⟨92, _⟩ => ⟨S8192x128, .f32⟩
  | .hbm, ⟨93, _⟩ => ⟨S1x128, .f32⟩
  | .hbm, ⟨94, _⟩ => ⟨S8192x128, .f32⟩
  | .hbm, ⟨95, _⟩ => ⟨S8192x128, .f32⟩
  | .hbm, ⟨96, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_1 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_2 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_3 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_4 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]

class Facts₀ : Prop where
  bcast_S_S8192x512 : S_.BroadcastsInDim S8192x512 (![] : Fin 0 → Fin S8192x512.rank)
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  transposes_S512x128_S128x512_1_0 : S512x128.Transposes [1, 0] S128x512
  transposes_S512x1024_S1024x512_1_0 : S512x1024.Transposes [1, 0] S1024x512
  bcast_S_S8192x1024 : S_.BroadcastsInDim S8192x1024 (![] : Fin 0 → Fin S8192x1024.rank)
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S1024x512_S512x1024_1_0 : S1024x512.Transposes [1, 0] S512x1024
  transposes_S128x512_S512x128_1_0 : S128x512.Transposes [1, 0] S512x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x512_S512x512_S8192x512_1_0_0_1_n_n_wf : DotDims.WF S8192x512 S512x512 S8192x512 [1] [0] [0] [1] [] []
  dot_S8192x128_S128x512_S8192x512_1_0_0_1_n_n_wf : DotDims.WF S8192x128 S128x512 S8192x512 [1] [0] [0] [1] [] []
  dot_S8192x1024_S1024x512_S8192x512_1_0_0_1_n_n_wf : DotDims.WF S8192x1024 S1024x512 S8192x512 [1] [0] [0] [1] [] []
  dot_S8192x1024_S1024x1024_S8192x1024_1_0_0_1_n_n_wf : DotDims.WF S8192x1024 S1024x1024 S8192x1024 [1] [0] [0] [1] [] []
  dot_S8192x512_S512x1024_S8192x1024_1_0_0_1_n_n_wf : DotDims.WF S8192x512 S512x1024 S8192x1024 [1] [0] [0] [1] [] []
  dot_S8192x512_S512x128_S8192x128_1_0_0_1_n_n_wf : DotDims.WF S8192x512 S512x128 S8192x128 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x128_S128x512_S8192x512_1_0_0_1_n_n : DotDims S8192x128 S128x512 S8192x512 where
  lhsContracting := [1]
  rhsContracting := [0]
  lhsNonContracting := [0]
  rhsNonContracting := [1]
  lhsBatch := []
  rhsBatch := []
  wf := dot_S8192x128_S128x512_S8192x512_1_0_0_1_n_n_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x512_S512x1024_S8192x1024_1_0_0_1_n_n : DotDims S8192x512 S512x1024 S8192x1024 where
  lhsContracting := [1]
  rhsContracting := [0]
  lhsNonContracting := [0]
  rhsNonContracting := [1]
  lhsBatch := []
  rhsBatch := []
  wf := dot_S8192x512_S512x1024_S8192x1024_1_0_0_1_n_n_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf

class Facts : Prop extends Facts₀ where

variable [Facts]
-- ==== Proof.Cell.lean ====
/-
  The cell, as a function of one row.

  A linear layer takes a row `x` of length `K`, a weight matrix `W` (`N` rows of length `K`, one per output unit)
  and a bias `b` of length `N` to the row `j ↦ Σ_k x_k · W_{j,k} + b_j`. The cell's hidden row is
  `tanh (½ · io + ((L_x x + L_io io) + L_cf cf) / 2)`: the previous state decayed by one half, plus half the sum
  of the three layers that feed it. Its output row is `tanh (L_o hidden)`. Everything is read on the extended
  reals. A row of the result depends only on the same row of the three inputs; that is what lets a block of rows
  be computed by itself, and what makes the blocks of the result restrictions of one function of the arrays.
-/
import Idealize.ShloMosaic.PureOps.Ideal
import Idealize.ShloMosaic.Lib.ValueIdx

noncomputable section

namespace Cert.Cell

open Idealize.ShloMosaic Idealize.ShloMosaic.ValueIdx

/-- One output unit of a linear layer: the row against that unit's weights, plus the unit's bias. -/
def lin {K N : Nat} (x : Fin K → EReal) (W : Fin N → Fin K → EReal) (b : Fin N → EReal) (j : Fin N) : EReal :=
  (∑ k : Fin K, x k * W j k) + b j

/-- The decay factor one half, by the binary word both programs spell it with. -/
abbrev half : EReal := Ideal.ofBits .f32 0x3F000000#32

/-- The time constant two, by the binary word both programs spell it with. -/
abbrev two : EReal := Ideal.ofBits .f32 0x40000000#32

/-- The hidden row: the decayed state plus half the three layers' sum, through `tanh`. The three layers are added
    input first, then the state's own layer, then the context's. -/
def hidden (x : Fin 128 → EReal) (io cf : Fin 512 → EReal)
    (Wx : Fin 512 → Fin 128 → EReal) (bx : Fin 512 → EReal)
    (Wio : Fin 512 → Fin 512 → EReal) (bio : Fin 512 → EReal)
    (Wcf : Fin 512 → Fin 512 → EReal) (bcf : Fin 512 → EReal) (j : Fin 512) : EReal :=
  Ideal.tanh (half * io j + Ideal.div ((lin x Wx bx j + lin io Wio bio j) + lin cf Wcf bcf j) two)

/-- The output row: the output layer of the hidden row, through `tanh`. -/
def out (x : Fin 128 → EReal) (io cf : Fin 512 → EReal)
    (Wx : Fin 512 → Fin 128 → EReal) (bx : Fin 512 → EReal)
    (Wio : Fin 512 → Fin 512 → EReal) (bio : Fin 512 → EReal)
    (Wcf : Fin 512 → Fin 512 → EReal) (bcf : Fin 512 → EReal)
    (Wo : Fin 128 → Fin 512 → EReal) (bo : Fin 128 → EReal) (n : Fin 128) : EReal :=
  Ideal.tanh (lin (hidden x io cf Wx bx Wio bio Wcf bcf) Wo bo n)

/-- Three terms added in the other grouping and order. Addition of extended reals is commutative and associative
    at the infinities too, so no term has to be finite. -/
theorem add_rotate (a b c : EReal) : (b + c) + a = (a + b) + c := by
  rw [add_comm (b + c) a, add_assoc]

/-- Entry `(r, n)` of the result: the cell's output row for row `r` of the three input arrays, the weight arrays read as
    matrices and the bias arrays as rows. The arrays come in the order the programs take them: the input, the state,
    the context; the input layer's weights and bias; the state layer's; the context layer's; the output layer's. -/
def entry (x : (⟨2, ![8192, 128]⟩ : Shape).Idx → EReal) (io cf : (⟨2, ![8192, 512]⟩ : Shape).Idx → EReal)
    (Wx : (⟨2, ![512, 128]⟩ : Shape).Idx → EReal) (bx : (⟨1, ![512]⟩ : Shape).Idx → EReal)
    (Wio : (⟨2, ![512, 512]⟩ : Shape).Idx → EReal) (bio : (⟨1, ![512]⟩ : Shape).Idx → EReal)
    (Wcf : (⟨2, ![512, 512]⟩ : Shape).Idx → EReal) (bcf : (⟨1, ![512]⟩ : Shape).Idx → EReal)
    (Wo : (⟨2, ![128, 512]⟩ : Shape).Idx → EReal) (bo : (⟨1, ![128]⟩ : Shape).Idx → EReal)
    (r : Fin 8192) (n : Fin 128) : EReal :=
  out (fun k => x (ix2 r k)) (fun k => io (ix2 r k)) (fun k => cf (ix2 r k))
    (fun j k => Wx (ix2 j k)) (fun j => bx (ix1 j))
    (fun j k => Wio (ix2 j k)) (fun j => bio (ix1 j))
    (fun j k => Wcf (ix2 j k)) (fun j => bcf (ix1 j))
    (fun n j => Wo (ix2 n j)) (fun n => bo (ix1 n)) n

/-- The whole result array as one function of the argument arrays. -/
def array (x : (⟨2, ![8192, 128]⟩ : Shape).Idx → EReal) (io cf : (⟨2, ![8192, 512]⟩ : Shape).Idx → EReal)
    (Wx : (⟨2, ![512, 128]⟩ : Shape).Idx → EReal) (bx : (⟨1, ![512]⟩ : Shape).Idx → EReal)
    (Wio : (⟨2, ![512, 512]⟩ : Shape).Idx → EReal) (bio : (⟨1, ![512]⟩ : Shape).Idx → EReal)
    (Wcf : (⟨2, ![512, 512]⟩ : Shape).Idx → EReal) (bcf : (⟨1, ![512]⟩ : Shape).Idx → EReal)
    (Wo : (⟨2, ![128, 512]⟩ : Shape).Idx → EReal) (bo : (⟨1, ![128]⟩ : Shape).Idx → EReal) :
    (⟨2, ![8192, 128]⟩ : Shape).Idx → EReal :=
  fun i => entry x io cf Wx bx Wio bio Wcf bcf Wo bo ⟨(i 0).val, idx2_lt0 i⟩ ⟨(i 1).val, idx2_lt1 i⟩

/-- The array at the index with coordinates `(r, n)` is entry `(r, n)`. -/
theorem array_ix2 (x : (⟨2, ![8192, 128]⟩ : Shape).Idx → EReal) (io cf : (⟨2, ![8192, 512]⟩ : Shape).Idx → EReal)
    (Wx : (⟨2, ![512, 128]⟩ : Shape).Idx → EReal) (bx : (⟨1, ![512]⟩ : Shape).Idx → EReal)
    (Wio : (⟨2, ![512, 512]⟩ : Shape).Idx → EReal) (bio : (⟨1, ![512]⟩ : Shape).Idx → EReal)
    (Wcf : (⟨2, ![512, 512]⟩ : Shape).Idx → EReal) (bcf : (⟨1, ![512]⟩ : Shape).Idx → EReal)
    (Wo : (⟨2, ![128, 512]⟩ : Shape).Idx → EReal) (bo : (⟨1, ![128]⟩ : Shape).Idx → EReal)
    (r : Fin 8192) (n : Fin 128) :
    array x io cf Wx bx Wio bio Wcf bcf Wo bo (ix2 r n) = entry x io cf Wx bx Wio bio Wcf bcf Wo bo r n := rfl

end Cert.Cell

end
-- ==== Proof.Payload.lean ====
/-
  The body's arithmetic at one row and one unit.

  A block of 2048 rows goes through the body as whole matrices: three matrix products against the layers' weight
  matrices, each contracted along the weight's second axis (unit `j` of a product is the row against row `j` of the
  weights), a bias row broadcast over the rows and added, the three sums added, halved, added to half the state,
  and `tanh`; then one more product, bias and `tanh`. Read at row `p` and unit `n`, every matrix product is a finite
  sum over the contracted coordinate and every other operation acts entry by entry, so the value is the cell's
  output row for row `p` of the three input blocks.
-/
import proofs.«165741_j9929964389009_2_alg».proof.Proof.Gen.KernelIdeal.Skeleton
import proofs.«165741_j9929964389009_2_alg».proof.Proof.Cell
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- `tanh` of a matrix, entry by entry. -/
theorem tanh_at {s : Shape} (a : FVec Ideal s .f32) (i : s.Idx) : tanh a i = Ideal.tanh (a i) := rfl

/-- The three matrix products of the body, by what they contract: rows of length 128 against the input layer's 512
    weight rows; rows of length 512 against a state layer's 512 weight rows; hidden rows of length 512 against the
    output layer's 128 weight rows. Each contracts the second axis of both operands. -/
abbrev Din := dot_S2048x128_S512x128_S2048x512_1_1_0_0_n_n
abbrev Dst := dot_S2048x512_S512x512_S2048x512_1_1_0_0_n_n
abbrev Dout := dot_S2048x512_S128x512_S2048x128_1_1_0_0_n_n

/-! The operand indices of each product at a result index and a contraction index, coordinate by coordinate: the
    left operand is read at the result's row and the contracted coordinate, the right operand at the result's column
    and the contracted coordinate. -/

theorem lhs_in_0 (i : S2048x512.Idx) (q : Din.contr.Idx) : (Din.lhsIdx i q 0).val = (i 0).val := by
  unfold DotDims.lhsIdx
  rw [dif_neg (show ¬(0 : Fin S2048x128.rank) ∈ Din.lhsBatch by decide), dif_pos (show (0 : Fin S2048x128.rank) ∈ Din.lhsNonContracting by decide)]
  rfl
theorem lhs_in_1 (i : S2048x512.Idx) (q : Din.contr.Idx) : (Din.lhsIdx i q 1).val = (q ⟨0, by decide⟩).val :=
  Din.lhsIdx_val_of_single rfl i q
theorem rhs_in_0 (i : S2048x512.Idx) (q : Din.contr.Idx) : (Din.rhsIdx i q 0).val = (i 1).val := by
  unfold DotDims.rhsIdx
  rw [dif_neg (show ¬(0 : Fin S512x128.rank) ∈ Din.rhsBatch by decide), dif_pos (show (0 : Fin S512x128.rank) ∈ Din.rhsNonContracting by decide)]
  rfl
theorem rhs_in_1 (i : S2048x512.Idx) (q : Din.contr.Idx) : (Din.rhsIdx i q 1).val = (q ⟨0, by decide⟩).val :=
  Din.rhsIdx_val_of_single rfl i q

theorem lhs_st_0 (i : S2048x512.Idx) (q : Dst.contr.Idx) : (Dst.lhsIdx i q 0).val = (i 0).val := by
  unfold DotDims.lhsIdx
  rw [dif_neg (show ¬(0 : Fin S2048x512.rank) ∈ Dst.lhsBatch by decide), dif_pos (show (0 : Fin S2048x512.rank) ∈ Dst.lhsNonContracting by decide)]
  rfl
theorem lhs_st_1 (i : S2048x512.Idx) (q : Dst.contr.Idx) : (Dst.lhsIdx i q 1).val = (q ⟨0, by decide⟩).val :=
  Dst.lhsIdx_val_of_single rfl i q
theorem rhs_st_0 (i : S2048x512.Idx) (q : Dst.contr.Idx) : (Dst.rhsIdx i q 0).val = (i 1).val := by
  unfold DotDims.rhsIdx
  rw [dif_neg (show ¬(0 : Fin S512x512.rank) ∈ Dst.rhsBatch by decide), dif_pos (show (0 : Fin S512x512.rank) ∈ Dst.rhsNonContracting by decide)]
  rfl
theorem rhs_st_1 (i : S2048x512.Idx) (q : Dst.contr.Idx) : (Dst.rhsIdx i q 1).val = (q ⟨0, by decide⟩).val :=
  Dst.rhsIdx_val_of_single rfl i q

theorem lhs_out_0 (i : S2048x128.Idx) (q : Dout.contr.Idx) : (Dout.lhsIdx i q 0).val = (i 0).val := by
  unfold DotDims.lhsIdx
  rw [dif_neg (show ¬(0 : Fin S2048x512.rank) ∈ Dout.lhsBatch by decide), dif_pos (show (0 : Fin S2048x512.rank) ∈ Dout.lhsNonContracting by decide)]
  rfl
theorem lhs_out_1 (i : S2048x128.Idx) (q : Dout.contr.Idx) : (Dout.lhsIdx i q 1).val = (q ⟨0, by decide⟩).val :=
  Dout.lhsIdx_val_of_single rfl i q
theorem rhs_out_0 (i : S2048x128.Idx) (q : Dout.contr.Idx) : (Dout.rhsIdx i q 0).val = (i 1).val := by
  unfold DotDims.rhsIdx
  rw [dif_neg (show ¬(0 : Fin S128x512.rank) ∈ Dout.rhsBatch by decide), dif_pos (show (0 : Fin S128x512.rank) ∈ Dout.rhsNonContracting by decide)]
  rfl
theorem rhs_out_1 (i : S2048x128.Idx) (q : Dout.contr.Idx) : (Dout.rhsIdx i q 1).val = (q ⟨0, by decide⟩).val :=
  Dout.rhsIdx_val_of_single rfl i q

/-- The input layer's product: entry `(p, j)` is the sum over the contracted coordinate `k` of row `p` at `k` times
    weight row `j` at `k`. -/
theorem matmul_in (l : FVec Ideal S2048x128 .f32) (r : FVec Ideal S512x128 .f32) (p : Fin 2048) (j : Fin 512) :
    matmul (F := Ideal) Din (some .fp32) l r (constant S2048x512 .f32 0x00000000#32) (ix2 p j)
      = ∑ k : Fin 128, l (ix2 p k) * r (ix2 j k) := by
  simp only [matmul]
  rw [Ideal.matmul_constant_zero_apply, ← Equiv.sum_comp (ValueIdx.contrEquiv1 Din 128 rfl rfl).symm]
  refine Finset.sum_congr rfl fun k _ => ?_
  have hk := ValueIdx.contrEquiv1_symm_val Din 128 rfl rfl k
  have el : Din.lhsIdx (ix2 p j) ((ValueIdx.contrEquiv1 Din 128 rfl rfl).symm k) = ix2 p k := funext fun a => Fin.ext (by
    match a with
    | ⟨0, _⟩ => exact lhs_in_0 _ _
    | ⟨1, _⟩ => exact (lhs_in_1 _ _).trans hk)
  have er : Din.rhsIdx (ix2 p j) ((ValueIdx.contrEquiv1 Din 128 rfl rfl).symm k) = ix2 j k := funext fun a => Fin.ext (by
    match a with
    | ⟨0, _⟩ => exact rhs_in_0 _ _
    | ⟨1, _⟩ => exact (rhs_in_1 _ _).trans hk)
  rw [el, er]

/-- A state layer's product, likewise, over rows of length 512. -/
theorem matmul_state (l : FVec Ideal S2048x512 .f32) (r : FVec Ideal S512x512 .f32) (p : Fin 2048) (j : Fin 512) :
    matmul (F := Ideal) Dst (some .fp32) l r (constant S2048x512 .f32 0x00000000#32) (ix2 p j)
      = ∑ k : Fin 512, l (ix2 p k) * r (ix2 j k) := by
  simp only [matmul]
  rw [Ideal.matmul_constant_zero_apply, ← Equiv.sum_comp (ValueIdx.contrEquiv1 Dst 512 rfl rfl).symm]
  refine Finset.sum_congr rfl fun k _ => ?_
  have hk := ValueIdx.contrEquiv1_symm_val Dst 512 rfl rfl k
  have el : Dst.lhsIdx (ix2 p j) ((ValueIdx.contrEquiv1 Dst 512 rfl rfl).symm k) = ix2 p k := funext fun a => Fin.ext (by
    match a with
    | ⟨0, _⟩ => exact lhs_st_0 _ _
    | ⟨1, _⟩ => exact (lhs_st_1 _ _).trans hk)
  have er : Dst.rhsIdx (ix2 p j) ((ValueIdx.contrEquiv1 Dst 512 rfl rfl).symm k) = ix2 j k := funext fun a => Fin.ext (by
    match a with
    | ⟨0, _⟩ => exact rhs_st_0 _ _
    | ⟨1, _⟩ => exact (rhs_st_1 _ _).trans hk)
  rw [el, er]

/-- The output layer's product, likewise: hidden rows against the 128 output weight rows. -/
theorem matmul_out (l : FVec Ideal S2048x512 .f32) (r : FVec Ideal S128x512 .f32) (p : Fin 2048) (n : Fin 128) :
    matmul (F := Ideal) Dout (some .fp32) l r (constant S2048x128 .f32 0x00000000#32) (ix2 p n)
      = ∑ k : Fin 512, l (ix2 p k) * r (ix2 n k) := by
  simp only [matmul]
  rw [Ideal.matmul_constant_zero_apply, ← Equiv.sum_comp (ValueIdx.contrEquiv1 Dout 512 rfl rfl).symm]
  refine Finset.sum_congr rfl fun k _ => ?_
  have hk := ValueIdx.contrEquiv1_symm_val Dout 512 rfl rfl k
  have el : Dout.lhsIdx (ix2 p n) ((ValueIdx.contrEquiv1 Dout 512 rfl rfl).symm k) = ix2 p k := funext fun a => Fin.ext (by
    match a with
    | ⟨0, _⟩ => exact lhs_out_0 _ _
    | ⟨1, _⟩ => exact (lhs_out_1 _ _).trans hk)
  have er : Dout.rhsIdx (ix2 p n) ((ValueIdx.contrEquiv1 Dout 512 rfl rfl).symm k) = ix2 n k := funext fun a => Fin.ext (by
    match a with
    | ⟨0, _⟩ => exact rhs_out_0 _ _
    | ⟨1, _⟩ => exact (rhs_out_1 _ _).trans hk)
  rw [el, er]

/-- The hidden block at row `p` and unit `j` is the cell's hidden row for row `p` of the three input blocks, the
    weight blocks read as matrices and each one-row bias block as its row. -/
theorem hidden_at (x0 : Vec Ideal S2048x128 .f32) (x1 x2 : Vec Ideal S2048x512 .f32) (x3 : Vec Ideal S512x128 .f32)
    (x4 : Vec Ideal S1x512 .f32) (x9 : Vec Ideal S512x512 .f32) (x10 : Vec Ideal S1x512 .f32)
    (x15 : Vec Ideal S512x512 .f32) (x16 : Vec Ideal S1x512 .f32) (p : Fin 2048) (j : Fin 512) :
    k0_pay2 (F := Ideal) x0 x1 x2 x3 x4 x9 x10 x15 x16 (ix2 p j)
      = Cell.hidden (fun k => x0 (ix2 p k)) (fun k => x1 (ix2 p k)) (fun k => x2 (ix2 p k))
          (fun j k => x3 (ix2 j k)) (fun j => x4 (ix2 (0 : Fin 1) j))
          (fun j k => x9 (ix2 j k)) (fun j => x10 (ix2 (0 : Fin 1) j))
          (fun j k => x15 (ix2 j k)) (fun j => x16 (ix2 (0 : Fin 1) j)) j := by
  unfold k0_pay2 Cell.hidden Cell.lin
  simp only [tanh_at, addf_apply, mulf_apply, divf_apply, broadcast_apply, matmul_in, matmul_state,
    broadcastTo_1b_ab_apply, shapeCast_self]
  rfl

/-- The stored block at row `p` and unit `n` is the cell's output row for row `p` of the three input blocks. -/
theorem out_at (x0 : Vec Ideal S2048x128 .f32) (x1 x2 : Vec Ideal S2048x512 .f32) (x3 : Vec Ideal S512x128 .f32)
    (x4 : Vec Ideal S1x512 .f32) (x5 : Vec Ideal S512x512 .f32) (x6 : Vec Ideal S1x512 .f32)
    (x7 : Vec Ideal S512x512 .f32) (x8 : Vec Ideal S1x512 .f32) (x9 : Vec Ideal S128x512 .f32)
    (x10 : Vec Ideal S1x128 .f32) (p : Fin 2048) (n : Fin 128) :
    k0_pay1 (F := Ideal) (k0_pay2 x0 x1 x2 x3 x4 x5 x6 x7 x8) x9 (k0_pay3 x10) (ix2 p n)
      = Cell.out (fun k => x0 (ix2 p k)) (fun k => x1 (ix2 p k)) (fun k => x2 (ix2 p k))
          (fun j k => x3 (ix2 j k)) (fun j => x4 (ix2 (0 : Fin 1) j))
          (fun j k => x5 (ix2 j k)) (fun j => x6 (ix2 (0 : Fin 1) j))
          (fun j k => x7 (ix2 j k)) (fun j => x8 (ix2 (0 : Fin 1) j))
          (fun n j => x9 (ix2 n j)) (fun n => x10 (ix2 (0 : Fin 1) n)) n := by
  unfold k0_pay1 k0_pay3 Cell.out Cell.lin
  simp only [tanh_at, addf_apply, matmul_out, broadcastTo_1b_ab_apply, shapeCast_self, hidden_at]

end Cert.KernelIdeal.Body

end
-- ==== Proof.Blocks.lean ====
/-
  From the blocks to the whole array.

  The grid has four points. At point `t` the three row-blocked inputs (the input, the state, the context) and the
  result each stage block `t` of their rows, 2048 rows at a time, and every weight matrix and bias row stages its one
  block, the whole array. A bias reaches the region as a one-row matrix, the bias array laid out as `[1, n]` before the
  region. So what point `t` writes back is, entry by entry, the cell's output for rows `2048 t … 2048 t + 2047` of the
  arguments: block `t` of one function of the whole arrays. The four blocks cover the result, so the result array ends
  at that function (`result_array`).
-/
import proofs.«165741_j9929964389009_2_alg».proof.Proof.Gen.KernelIdeal.Value
import proofs.«165741_j9929964389009_2_alg».proof.Proof.Payload
import Idealize.ShloMosaic.Lib.Pipeline.Value
import Idealize.ShloMosaic.Lib.StableHlo.Run
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ)

/-- A block is stored and loaded whole: every access starts at offset zero on both axes. -/
theorem zero_offsets : (![0, 0] : Fin 2 → Nat) = fun _ => 0 := funext fun a => by fin_cases a <;> rfl

/-! ## The block each window stages at a point -/

/-- Window 0 stages block `t` of the rows at point `t`. -/
theorem idx0 : ∀ t : Fin cfg0.N, win0_0.index t (0 : Fin 2) = t.val ∧ win0_0.index t (1 : Fin 2) = 0 :=
  (by decide +kernel : ∀ t : Fin grid0.N, _)

/-- Window 1 stages block `t` of the rows at point `t`. -/
theorem idx1 : ∀ t : Fin cfg0.N, win0_1.index t (0 : Fin 2) = t.val ∧ win0_1.index t (1 : Fin 2) = 0 :=
  (by decide +kernel : ∀ t : Fin grid0.N, _)

/-- Window 2 stages block `t` of the rows at point `t`. -/
theorem idx2 : ∀ t : Fin cfg0.N, win0_2.index t (0 : Fin 2) = t.val ∧ win0_2.index t (1 : Fin 2) = 0 :=
  (by decide +kernel : ∀ t : Fin grid0.N, _)

/-- Window 11 stages block `t` of the rows at point `t`. -/
theorem idx11 : ∀ t : Fin cfg0.N, win0_11.index t (0 : Fin 2) = t.val ∧ win0_11.index t (1 : Fin 2) = 0 :=
  (by decide +kernel : ∀ t : Fin grid0.N, _)

/-- Window 3 stages its one block at every point. -/
theorem idx3 : ∀ t : Fin cfg0.N, win0_3.index t (0 : Fin 2) = 0 ∧ win0_3.index t (1 : Fin 2) = 0 :=
  (by decide +kernel : ∀ t : Fin grid0.N, _)

/-- Window 4 stages its one block at every point. -/
theorem idx4 : ∀ t : Fin cfg0.N, win0_4.index t (0 : Fin 2) = 0 ∧ win0_4.index t (1 : Fin 2) = 0 :=
  (by decide +kernel : ∀ t : Fin grid0.N, _)

/-- Window 5 stages its one block at every point. -/
theorem idx5 : ∀ t : Fin cfg0.N, win0_5.index t (0 : Fin 2) = 0 ∧ win0_5.index t (1 : Fin 2) = 0 :=
  (by decide +kernel : ∀ t : Fin grid0.N, _)

/-- Window 6 stages its one block at every point. -/
theorem idx6 : ∀ t : Fin cfg0.N, win0_6.index t (0 : Fin 2) = 0 ∧ win0_6.index t (1 : Fin 2) = 0 :=
  (by decide +kernel : ∀ t : Fin grid0.N, _)

/-- Window 7 stages its one block at every point. -/
theorem idx7 : ∀ t : Fin cfg0.N, win0_7.index t (0 : Fin 2) = 0 ∧ win0_7.index t (1 : Fin 2) = 0 :=
  (by decide +kernel : ∀ t : Fin grid0.N, _)

/-- Window 8 stages its one block at every point. -/
theorem idx8 : ∀ t : Fin cfg0.N, win0_8.index t (0 : Fin 2) = 0 ∧ win0_8.index t (1 : Fin 2) = 0 :=
  (by decide +kernel : ∀ t : Fin grid0.N, _)

/-- Window 9 stages its one block at every point. -/
theorem idx9 : ∀ t : Fin cfg0.N, win0_9.index t (0 : Fin 2) = 0 ∧ win0_9.index t (1 : Fin 2) = 0 :=
  (by decide +kernel : ∀ t : Fin grid0.N, _)

/-- Window 10 stages its one block at every point. -/
theorem idx10 : ∀ t : Fin cfg0.N, win0_10.index t (0 : Fin 2) = 0 ∧ win0_10.index t (1 : Fin 2) = 0 :=
  (by decide +kernel : ∀ t : Fin grid0.N, _)

/-! ## The input blocks as entries of the argument arrays -/

/-- Row `p` of window 0's block at point `t` is row `2048 t + p` of its array. -/
theorem rows0 (c : Dev nD) (t : Fin cfg0.N) (p : Fin 2048) (k : Fin 128) (hr : t.val * 2048 + p.val < 8192) :
    (iblk m c 0 t : Vec Ideal S2048x128 .f32) (ix2 p k)
      = (m ((c : Thread nD τ).loc main_arg0) : S8192x128.Idx → Elt Ideal .f32) (ix2 ⟨t.val * 2048 + p.val, hr⟩ k) := by
  obtain ⟨e0, e1⟩ := idx0 t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 2048 + 1 * p.val = t.val * 2048 + p.val; rw [e0]; omega
  | ⟨1, _⟩ => show win0_0.index t (1 : Fin 2) * 128 + 1 * k.val = k.val; rw [e1]; omega

/-- Row `p` of window 1's block at point `t` is row `2048 t + p` of its array. -/
theorem rows1 (c : Dev nD) (t : Fin cfg0.N) (p : Fin 2048) (k : Fin 512) (hr : t.val * 2048 + p.val < 8192) :
    (iblk m c 1 t : Vec Ideal S2048x512 .f32) (ix2 p k)
      = (m ((c : Thread nD τ).loc main_arg1) : S8192x512.Idx → Elt Ideal .f32) (ix2 ⟨t.val * 2048 + p.val, hr⟩ k) := by
  obtain ⟨e0, e1⟩ := idx1 t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 2048 + 1 * p.val = t.val * 2048 + p.val; rw [e0]; omega
  | ⟨1, _⟩ => show win0_1.index t (1 : Fin 2) * 512 + 1 * k.val = k.val; rw [e1]; omega

/-- Row `p` of window 2's block at point `t` is row `2048 t + p` of its array. -/
theorem rows2 (c : Dev nD) (t : Fin cfg0.N) (p : Fin 2048) (k : Fin 512) (hr : t.val * 2048 + p.val < 8192) :
    (iblk m c 2 t : Vec Ideal S2048x512 .f32) (ix2 p k)
      = (m ((c : Thread nD τ).loc main_arg2) : S8192x512.Idx → Elt Ideal .f32) (ix2 ⟨t.val * 2048 + p.val, hr⟩ k) := by
  obtain ⟨e0, e1⟩ := idx2 t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 2) * 2048 + 1 * p.val = t.val * 2048 + p.val; rw [e0]; omega
  | ⟨1, _⟩ => show win0_2.index t (1 : Fin 2) * 512 + 1 * k.val = k.val; rw [e1]; omega

/-- Window 3's one block is its whole weight array. -/
theorem mat3 (c : Dev nD) (t : Fin cfg0.N) (j : Fin 512) (k : Fin 128) :
    (iblk m c 3 t : Vec Ideal S512x128 .f32) (ix2 j k)
      = (m ((c : Thread nD τ).loc main_arg4) : S512x128.Idx → Elt Ideal .f32) (ix2 j k) := by
  obtain ⟨e0, e1⟩ := idx3 t
  unfold iblk
  rw [View.read_apply]
  show V m c main_arg4 _ = _
  rw [V_main_arg4]
  refine congrArg (m ((c : Thread nD τ).loc main_arg4)) (funext fun a => Fin.ext ?_)
  match a with
  | ⟨0, _⟩ => show win0_3.index t (0 : Fin 2) * 512 + 1 * j.val = j.val; rw [e0]; omega
  | ⟨1, _⟩ => show win0_3.index t (1 : Fin 2) * 128 + 1 * k.val = k.val; rw [e1]; omega

/-- Window 5's one block is its whole weight array. -/
theorem mat5 (c : Dev nD) (t : Fin cfg0.N) (j : Fin 512) (k : Fin 512) :
    (iblk m c 5 t : Vec Ideal S512x512 .f32) (ix2 j k)
      = (m ((c : Thread nD τ).loc main_arg8) : S512x512.Idx → Elt Ideal .f32) (ix2 j k) := by
  obtain ⟨e0, e1⟩ := idx5 t
  unfold iblk
  rw [View.read_apply]
  show V m c main_arg8 _ = _
  rw [V_main_arg8]
  refine congrArg (m ((c : Thread nD τ).loc main_arg8)) (funext fun a => Fin.ext ?_)
  match a with
  | ⟨0, _⟩ => show win0_5.index t (0 : Fin 2) * 512 + 1 * j.val = j.val; rw [e0]; omega
  | ⟨1, _⟩ => show win0_5.index t (1 : Fin 2) * 512 + 1 * k.val = k.val; rw [e1]; omega

/-- Window 7's one block is its whole weight array. -/
theorem mat7 (c : Dev nD) (t : Fin cfg0.N) (j : Fin 512) (k : Fin 512) :
    (iblk m c 7 t : Vec Ideal S512x512 .f32) (ix2 j k)
      = (m ((c : Thread nD τ).loc main_arg12) : S512x512.Idx → Elt Ideal .f32) (ix2 j k) := by
  obtain ⟨e0, e1⟩ := idx7 t
  unfold iblk
  rw [View.read_apply]
  show V m c main_arg12 _ = _
  rw [V_main_arg12]
  refine congrArg (m ((c : Thread nD τ).loc main_arg12)) (funext fun a => Fin.ext ?_)
  match a with
  | ⟨0, _⟩ => show win0_7.index t (0 : Fin 2) * 512 + 1 * j.val = j.val; rw [e0]; omega
  | ⟨1, _⟩ => show win0_7.index t (1 : Fin 2) * 512 + 1 * k.val = k.val; rw [e1]; omega

/-- Window 9's one block is its whole weight array. -/
theorem mat9 (c : Dev nD) (t : Fin cfg0.N) (j : Fin 128) (k : Fin 512) :
    (iblk m c 9 t : Vec Ideal S128x512 .f32) (ix2 j k)
      = (m ((c : Thread nD τ).loc main_arg6) : S128x512.Idx → Elt Ideal .f32) (ix2 j k) := by
  obtain ⟨e0, e1⟩ := idx9 t
  unfold iblk
  rw [View.read_apply]
  show V m c main_arg6 _ = _
  rw [V_main_arg6]
  refine congrArg (m ((c : Thread nD τ).loc main_arg6)) (funext fun a => Fin.ext ?_)
  match a with
  | ⟨0, _⟩ => show win0_9.index t (0 : Fin 2) * 128 + 1 * j.val = j.val; rw [e0]; omega
  | ⟨1, _⟩ => show win0_9.index t (1 : Fin 2) * 512 + 1 * k.val = k.val; rw [e1]; omega

/-- The one-row matrix window 4 stages is the bias array laid out as a row before the region. -/
theorem host4 (c : Dev nD) :
    (V m c main_v0 : S1x512.Idx → Elt Ideal .f32) = shapeCast S1x512 (m ((c : Thread nD τ).loc main_arg5) : S512.Idx → Elt Ideal .f32) shapeCasts_S512_S1x512 := by
  dsimp only [V, hostOps0]
  after_results
  rfl

/-- Window 4's one block, its one row read at `j`, is the bias array at `j`. -/
theorem bias4 (c : Dev nD) (t : Fin cfg0.N) (j : Fin 512) :
    (iblk m c 4 t : Vec Ideal S1x512 .f32) (ix2 (0 : Fin 1) j)
      = (m ((c : Thread nD τ).loc main_arg5) : S512.Idx → Elt Ideal .f32) (ix1 j) := by
  obtain ⟨e0, e1⟩ := idx4 t
  unfold iblk
  rw [View.read_apply]
  show V m c main_v0 _ = _
  rw [host4]
  refine (congrArg (shapeCast S1x512 (m ((c : Thread nD τ).loc main_arg5) : S512.Idx → Elt Ideal .f32) shapeCasts_S512_S1x512) (funext fun a => Fin.ext ?_)).trans
    (shapeCast_a_1a_apply _ shapeCasts_S512_S1x512 (0 : Fin 1) j)
  match a with
  | ⟨0, _⟩ => show win0_4.index t (0 : Fin 2) * 1 + 1 * 0 = 0; rw [e0]
  | ⟨1, _⟩ => show win0_4.index t (1 : Fin 2) * 512 + 1 * j.val = j.val; rw [e1]; omega

/-- The one-row matrix window 6 stages is the bias array laid out as a row before the region. -/
theorem host6 (c : Dev nD) :
    (V m c main_v1 : S1x512.Idx → Elt Ideal .f32) = shapeCast S1x512 (m ((c : Thread nD τ).loc main_arg9) : S512.Idx → Elt Ideal .f32) shapeCasts_S512_S1x512 := by
  dsimp only [V, hostOps0]
  after_results
  rfl

/-- Window 6's one block, its one row read at `j`, is the bias array at `j`. -/
theorem bias6 (c : Dev nD) (t : Fin cfg0.N) (j : Fin 512) :
    (iblk m c 6 t : Vec Ideal S1x512 .f32) (ix2 (0 : Fin 1) j)
      = (m ((c : Thread nD τ).loc main_arg9) : S512.Idx → Elt Ideal .f32) (ix1 j) := by
  obtain ⟨e0, e1⟩ := idx6 t
  unfold iblk
  rw [View.read_apply]
  show V m c main_v1 _ = _
  rw [host6]
  refine (congrArg (shapeCast S1x512 (m ((c : Thread nD τ).loc main_arg9) : S512.Idx → Elt Ideal .f32) shapeCasts_S512_S1x512) (funext fun a => Fin.ext ?_)).trans
    (shapeCast_a_1a_apply _ shapeCasts_S512_S1x512 (0 : Fin 1) j)
  match a with
  | ⟨0, _⟩ => show win0_6.index t (0 : Fin 2) * 1 + 1 * 0 = 0; rw [e0]
  | ⟨1, _⟩ => show win0_6.index t (1 : Fin 2) * 512 + 1 * j.val = j.val; rw [e1]; omega

/-- The one-row matrix window 8 stages is the bias array laid out as a row before the region. -/
theorem host8 (c : Dev nD) :
    (V m c main_v2 : S1x512.Idx → Elt Ideal .f32) = shapeCast S1x512 (m ((c : Thread nD τ).loc main_arg13) : S512.Idx → Elt Ideal .f32) shapeCasts_S512_S1x512 := by
  dsimp only [V, hostOps0]
  after_results
  rfl

/-- Window 8's one block, its one row read at `j`, is the bias array at `j`. -/
theorem bias8 (c : Dev nD) (t : Fin cfg0.N) (j : Fin 512) :
    (iblk m c 8 t : Vec Ideal S1x512 .f32) (ix2 (0 : Fin 1) j)
      = (m ((c : Thread nD τ).loc main_arg13) : S512.Idx → Elt Ideal .f32) (ix1 j) := by
  obtain ⟨e0, e1⟩ := idx8 t
  unfold iblk
  rw [View.read_apply]
  show V m c main_v2 _ = _
  rw [host8]
  refine (congrArg (shapeCast S1x512 (m ((c : Thread nD τ).loc main_arg13) : S512.Idx → Elt Ideal .f32) shapeCasts_S512_S1x512) (funext fun a => Fin.ext ?_)).trans
    (shapeCast_a_1a_apply _ shapeCasts_S512_S1x512 (0 : Fin 1) j)
  match a with
  | ⟨0, _⟩ => show win0_8.index t (0 : Fin 2) * 1 + 1 * 0 = 0; rw [e0]
  | ⟨1, _⟩ => show win0_8.index t (1 : Fin 2) * 512 + 1 * j.val = j.val; rw [e1]; omega

/-- The one-row matrix window 10 stages is the bias array laid out as a row before the region. -/
theorem host10 (c : Dev nD) :
    (V m c main_v3 : S1x128.Idx → Elt Ideal .f32) = shapeCast S1x128 (m ((c : Thread nD τ).loc main_arg7) : S128.Idx → Elt Ideal .f32) shapeCasts_S128_S1x128 := by
  dsimp only [V, hostOps0]
  after_results
  rfl

/-- Window 10's one block, its one row read at `j`, is the bias array at `j`. -/
theorem bias10 (c : Dev nD) (t : Fin cfg0.N) (j : Fin 128) :
    (iblk m c 10 t : Vec Ideal S1x128 .f32) (ix2 (0 : Fin 1) j)
      = (m ((c : Thread nD τ).loc main_arg7) : S128.Idx → Elt Ideal .f32) (ix1 j) := by
  obtain ⟨e0, e1⟩ := idx10 t
  unfold iblk
  rw [View.read_apply]
  show V m c main_v3 _ = _
  rw [host10]
  refine (congrArg (shapeCast S1x128 (m ((c : Thread nD τ).loc main_arg7) : S128.Idx → Elt Ideal .f32) shapeCasts_S128_S1x128) (funext fun a => Fin.ext ?_)).trans
    (shapeCast_a_1a_apply _ shapeCasts_S128_S1x128 (0 : Fin 1) j)
  match a with
  | ⟨0, _⟩ => show win0_10.index t (0 : Fin 2) * 1 + 1 * 0 = 0; rw [e0]
  | ⟨1, _⟩ => show win0_10.index t (1 : Fin 2) * 128 + 1 * j.val = j.val; rw [e1]; omega

/-! ## What a point writes back, and the final array -/

/-- The number of grid points, as a number. -/
theorem four : cfg0.N = 4 := N_0

/-- The result array as one function of the argument arrays as launched. -/
abbrev result (c : Dev nD) : S8192x128.Idx → Elt Ideal .f32 :=
  Cell.array (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg12)) (m ((c : Thread nD τ).loc main_arg13)) (m ((c : Thread nD τ).loc main_arg6)) (m ((c : Thread nD τ).loc main_arg7))

/-- An entry of the result's block at point `t` sits in the array at row `2048 t + p` and the same column. -/
theorem emb11 (t : Fin cfg0.N) (p : Fin 2048) (n : Fin 128) (hr : t.val * 2048 + p.val < 8192) :
    ((cfg0.win 11).blk t).view.emb (ix2 p n : S2048x128.Idx) = (ix2 ⟨t.val * 2048 + p.val, hr⟩ n : S8192x128.Idx) := by
  obtain ⟨e0, e1⟩ := idx11 t
  refine funext fun a => Fin.ext ?_
  match a with
  | ⟨0, _⟩ => show win0_11.index t (0 : Fin 2) * 2048 + 1 * p.val = t.val * 2048 + p.val; rw [e0]; omega
  | ⟨1, _⟩ => show win0_11.index t (1 : Fin 2) * 128 + 1 * n.val = n.val; rw [e1]; omega

/-- The body's stored block at point `t`, entry by entry, is the cell's output for the rows of that block. -/
theorem stored_at (c : Dev nD) (t : Fin cfg0.N) (y : S2048x128.Idx) :
    k0_pay1 (F := Ideal) (k0_pay2 (iblk m c 0 t) (iblk m c 1 t) (iblk m c 2 t) (iblk m c 3 t) (iblk m c 4 t) (iblk m c 5 t) (iblk m c 6 t) (iblk m c 7 t) (iblk m c 8 t))
        (iblk m c 9 t) (k0_pay3 (iblk m c 10 t)) y
      = result m c (((cfg0.win 11).blk t).view.emb y) := by
  obtain ⟨p, n, rfl⟩ : ∃ (p : Fin 2048) (n : Fin 128), y = ix2 p n := ⟨y 0, y 1, eq_ix2 y⟩
  have hr : t.val * 2048 + p.val < 8192 := by have := t.isLt; have := four; have := p.isLt; omega
  rw [emb11 t p n hr]
  show _ = Cell.array _ _ _ _ _ _ _ _ _ _ _ (ix2 _ n)
  rw [Cell.array_ix2]
  unfold Cell.entry
  refine (Body.out_at (iblk m c 0 t) (iblk m c 1 t) (iblk m c 2 t) (iblk m c 3 t) (iblk m c 4 t) (iblk m c 5 t) (iblk m c 6 t) (iblk m c 7 t) (iblk m c 8 t) (iblk m c 9 t) (iblk m c 10 t) p n).trans ?_
  simp only [rows0 m c t p _ hr, rows1 m c t p _ hr, rows2 m c t p _ hr, mat3 m c t, mat5 m c t, mat7 m c t, mat9 m c t,
    bias4 m c t, bias6 m c t, bias8 m c t, bias10 m c t]

/-- WHAT POINT `t` WRITES BACK is block `t` of the result. -/
theorem written_back (c : Dev nD) (t : Fin cfg0.N) :
    (dats m 0 c).flushed 11 t = ((cfg0.win 11).blk t).view.read (Elt Ideal) (result m c) := by
  show (cfg0.win 11).cut (grid0.coords t) ((dats m 0 c).after 11 t) = _
  rw [after0_11]
  unfold out0_11
  rw [View.canon_unit_zero zero_offsets]
  simp only [View.ld_unit_zero (S := S2048x128) zero_offsets, View.ld_unit_zero (S := S2048x512) zero_offsets, View.ld_unit_zero (S := S512x128) zero_offsets,
    View.ld_unit_zero (S := S1x512) zero_offsets, View.ld_unit_zero (S := S512x512) zero_offsets, View.ld_unit_zero (S := S128x512) zero_offsets,
    View.ld_unit_zero (S := S1x128) zero_offsets]
  funext y
  exact stored_at m c t y

/-- An index of the array is in point `t`'s block iff each coordinate is in the block's range on its axis. -/
theorem mem_block (t : Fin cfg0.N) (i : S8192x128.Idx) :
    i ∈ ((cfg0.win 11).blk t).view.set ↔ ∀ a : Fin 2, win0_11.index t a * S2048x128.size a ≤ (i a).val ∧ (i a).val < win0_11.index t a * S2048x128.size a + S2048x128.size a := by
  show i ∈ ((View.whole main_v4).slice (win0_11.rect t)).set ↔ _
  rw [View.set_slice_whole, Rect.mem_set_unit]
  exact Iff.rfl

/-- The four blocks cover the result: row `r` is in the block of point `r / 2048`. -/
theorem cover (i : S8192x128.Idx) : ∃ t : Fin cfg0.N, (cfg0.win 11).flush t = true ∧ i ∈ ((cfg0.win 11).blk t).view.set := by
  have hi0 : (i 0).val < 8192 := (i 0).isLt
  have hi1 : (i 1).val < 128 := (i 1).isLt
  have hN := four
  let t : Fin cfg0.N := ⟨(i 0).val / 2048, by omega⟩
  obtain ⟨e0, e1⟩ := idx11 t
  have ht : t.val = (i 0).val / 2048 := rfl
  refine ⟨t, flush0_11 t, ?_⟩
  rw [mem_block]
  intro a
  match a with
  | ⟨0, _⟩ => show win0_11.index t (0 : Fin 2) * 2048 ≤ (i 0).val ∧ (i 0).val < win0_11.index t (0 : Fin 2) * 2048 + 2048; rw [e0, ht]; omega
  | ⟨1, _⟩ => show win0_11.index t (1 : Fin 2) * 128 ≤ (i 1).val ∧ (i 1).val < win0_11.index t (1 : Fin 2) * 128 + 128; rw [e1]; omega

/-- THE ARRAY after the run is the result. -/
theorem result_array (c : Dev nD) : (dats m 0 c).arrAt 11 cfg0.N = result m c :=
  (dats m 0 c).arrAt_eq_of_cover 11 (result m c) (fun t _ => written_back m c t) cover

end Cert.KernelIdeal.Blocks

end
-- ==== Proof.Reference.lean ====
/-
  The reference's result is the cell, entry by entry.

  The reference computes the same cell on whole arrays: each layer is the input array times the TRANSPOSED weight
  matrix (so unit `j` of the product is again the row against weight row `j`), plus the bias laid out as a row and
  repeated over the rows. Read at one index every stage is an operation on single entries or a finite sum, and the
  only difference left from the cell as the kernel computes it is the order in which the three layers are added:
  the reference adds the state's layer and the context's first and the input's last.
-/
import proofs.«165741_j9929964389009_2_alg».proof.Proof.Gen.ReferenceIdeal.Read
import proofs.«165741_j9929964389009_2_alg».proof.Proof.Cell

noncomputable section

namespace Cert.ReferenceIdeal.RefValue

open Cert.ReferenceIdeal Cert.ReferenceIdeal.Read Idealize.ShloMosaic Idealize.ShloMosaic.ValueIdx

/-- The hidden stage at row `r` and unit `j` is the cell's hidden row for row `r` of the three input arrays. The
    three layers arrive added as (state + context) + input; the cell adds them as (input + state) + context. -/
theorem hidden_ref (x0 : (⟨S8192x128, .f32⟩ : BufTy).Contents (Elt Ideal)) (x1 x2 : (⟨S8192x512, .f32⟩ : BufTy).Contents (Elt Ideal)) (x4 : (⟨S512x128, .f32⟩ : BufTy).Contents (Elt Ideal)) (x5 : (⟨S512, .f32⟩ : BufTy).Contents (Elt Ideal))
    (x8 : (⟨S512x512, .f32⟩ : BufTy).Contents (Elt Ideal)) (x9 : (⟨S512, .f32⟩ : BufTy).Contents (Elt Ideal)) (x12 : (⟨S512x512, .f32⟩ : BufTy).Contents (Elt Ideal)) (x13 : (⟨S512, .f32⟩ : BufTy).Contents (Elt Ideal)) (r : Fin 8192) (j : Fin 512) :
    val_main_v22 (F := Ideal) x0 x1 x2 x4 x5 x8 x9 x12 x13 (ix2 r j)
      = Cell.hidden (fun k => x0 (ix2 r k)) (fun k => x1 (ix2 r k)) (fun k => x2 (ix2 r k))
          (fun j k => x4 (ix2 j k)) (fun j => x5 (ix1 j))
          (fun j k => x8 (ix2 j k)) (fun j => x9 (ix1 j))
          (fun j k => x12 (ix2 j k)) (fun j => x13 (ix1 j)) j := by
  have l3 : ∀ k, lidx_main_v3 (ix2 r j) k = ix2 r k := fun k => funext fun a => Fin.ext (by match a with | ⟨0, _⟩ => rfl | ⟨1, _⟩ => rfl)
  have r3 : ∀ k, idx_main_v2 (ridx_main_v3 (ix2 r j) k) = ix2 j k := fun k => funext fun a => Fin.ext (by match a with | ⟨0, _⟩ => rfl | ⟨1, _⟩ => rfl)
  have b5 : idx_main_v4 (idx_main_v5 (ix2 r j)) = ix1 j := funext fun a => Fin.ext (by match a with | ⟨0, _⟩ => rfl)
  have l8 : ∀ k, lidx_main_v8 (ix2 r j) k = ix2 r k := fun k => funext fun a => Fin.ext (by match a with | ⟨0, _⟩ => rfl | ⟨1, _⟩ => rfl)
  have r8 : ∀ k, idx_main_v7 (ridx_main_v8 (ix2 r j) k) = ix2 j k := fun k => funext fun a => Fin.ext (by match a with | ⟨0, _⟩ => rfl | ⟨1, _⟩ => rfl)
  have b10 : idx_main_v9 (idx_main_v10 (ix2 r j)) = ix1 j := funext fun a => Fin.ext (by match a with | ⟨0, _⟩ => rfl)
  have l14 : ∀ k, lidx_main_v14 (ix2 r j) k = ix2 r k := fun k => funext fun a => Fin.ext (by match a with | ⟨0, _⟩ => rfl | ⟨1, _⟩ => rfl)
  have r14 : ∀ k, idx_main_v13 (ridx_main_v14 (ix2 r j) k) = ix2 j k := fun k => funext fun a => Fin.ext (by match a with | ⟨0, _⟩ => rfl | ⟨1, _⟩ => rfl)
  have b16 : idx_main_v15 (idx_main_v16 (ix2 r j)) = ix1 j := funext fun a => Fin.ext (by match a with | ⟨0, _⟩ => rfl)
  simp only [val_main_v22_apply, val_main_v21_apply, val_main_v1_apply, val_main_v0_apply, val_main_cst_apply,
    val_main_v20_apply, val_main_v19_apply, val_main_cst_0_apply, val_main_v18_apply, val_main_v12_apply,
    val_main_v6_apply, val_main_v3_apply, val_main_v2_apply, val_main_v5_apply, val_main_v4_apply,
    val_main_v11_apply, val_main_v8_apply, val_main_v7_apply, val_main_v10_apply, val_main_v9_apply,
    val_main_v17_apply, val_main_v14_apply, val_main_v13_apply, val_main_v16_apply, val_main_v15_apply,
    l3, r3, b5, l8, r8, b10, l14, r14, b16]
  unfold Cell.hidden Cell.lin
  simp only [Ideal.hostUnary_tanh_def, Ideal.addf_def, Ideal.mulf_def, Ideal.hostDivf_def, Ideal.ofBits_def]
  exact congrArg (fun s => Ideal.tanh (Cell.half * x1 (ix2 r j) + Ideal.div s Cell.two)) (Cell.add_rotate _ _ _)

/-- The reference's last stage is the whole result array of the cell. -/
theorem array_ref (x0 : (⟨S8192x128, .f32⟩ : BufTy).Contents (Elt Ideal)) (x1 x2 : (⟨S8192x512, .f32⟩ : BufTy).Contents (Elt Ideal)) (x4 : (⟨S512x128, .f32⟩ : BufTy).Contents (Elt Ideal)) (x5 : (⟨S512, .f32⟩ : BufTy).Contents (Elt Ideal))
    (x6 : (⟨S128x512, .f32⟩ : BufTy).Contents (Elt Ideal)) (x7 : (⟨S128, .f32⟩ : BufTy).Contents (Elt Ideal))
    (x8 : (⟨S512x512, .f32⟩ : BufTy).Contents (Elt Ideal)) (x9 : (⟨S512, .f32⟩ : BufTy).Contents (Elt Ideal)) (x12 : (⟨S512x512, .f32⟩ : BufTy).Contents (Elt Ideal)) (x13 : (⟨S512, .f32⟩ : BufTy).Contents (Elt Ideal)) :
    val_main_v68 (F := Ideal) x0 x1 x2 x4 x5 x6 x7 x8 x9 x12 x13 = Cell.array x0 x1 x2 x4 x5 x8 x9 x12 x13 x6 x7 := by
  funext i
  obtain ⟨r, n, rfl⟩ : ∃ (r : Fin 8192) (n : Fin 128), i = ix2 r n := ⟨i 0, i 1, eq_ix2 i⟩
  rw [Cell.array_ix2]
  have l64 : ∀ j, lidx_main_v64 (ix2 r n) j = ix2 r j := fun j => funext fun a => Fin.ext (by match a with | ⟨0, _⟩ => rfl | ⟨1, _⟩ => rfl)
  have r64 : ∀ j, idx_main_v63 (ridx_main_v64 (ix2 r n) j) = ix2 n j := fun j => funext fun a => Fin.ext (by match a with | ⟨0, _⟩ => rfl | ⟨1, _⟩ => rfl)
  have b66 : idx_main_v65 (idx_main_v66 (ix2 r n)) = ix1 n := funext fun a => Fin.ext (by match a with | ⟨0, _⟩ => rfl)
  simp only [val_main_v68_apply, val_main_v67_apply, val_main_v64_apply, val_main_v63_apply, val_main_v66_apply,
    val_main_v65_apply, l64, r64, b66, hidden_ref]
  unfold Cell.entry Cell.out Cell.lin
  simp only [Ideal.hostUnary_tanh_def, Ideal.addf_def]

end Cert.ReferenceIdeal.RefValue

end
-- ==== Proof.lean ====
/-
  The certificate of the cell kernel against its reference.

  Both programs compute, for each of 8192 rows, `tanh (L_o (tanh (½ · io + (L_x x + L_io io + L_cf cf) / 2)))`, where
  each `L` is a linear layer `row ↦ row · Wᵀ + b`. The kernel does it 2048 rows at a time, each layer one matrix product
  contracted along the weights' second axis, the biases as one-row matrices; the reference does it on the whole arrays,
  each layer a product with the transposed weights, and adds the three layers in another order. On the extended reals a
  matrix product is a finite sum of products and every other operation acts entry by entry, so both results are the
  same function of the argument arrays once the three-term sum is regrouped, which needs commutativity and
  associativity of addition only: no entry has to be finite, and the precondition is never opened.

  Proof/Cell.lean states that function; Proof/Payload.lean reads the kernel body's arithmetic at an entry;
  Proof/Blocks.lean reads the four blocks the kernel writes back as the whole array; Proof/Reference.lean reads the
  reference's last stage at an entry. The three runs are the generated frames and the generated reference run. The
  idealized kernel is the kernel's own text read on the extended reals (no operation was rewritten), so there is
  nothing to preserve.
-/
import proofs.«165741_j9929964389009_2_alg».proof.Defs
import proofs.«165741_j9929964389009_2_alg».proof.Proof.Gen.Kernel
import proofs.«165741_j9929964389009_2_alg».proof.Proof.Gen.Kernel.Frame
import proofs.«165741_j9929964389009_2_alg».proof.Proof.Gen.KernelIdeal
import proofs.«165741_j9929964389009_2_alg».proof.Proof.Gen.KernelIdeal.Frame
import proofs.«165741_j9929964389009_2_alg».proof.Proof.Gen.KernelIdeal.Value
import proofs.«165741_j9929964389009_2_alg».proof.Proof.Gen.ReferenceIdeal
import proofs.«165741_j9929964389009_2_alg».proof.Proof.Gen.ReferenceIdeal.Run
import proofs.«165741_j9929964389009_2_alg».proof.Proof.Gen.ReferenceIdeal.Read
import proofs.«165741_j9929964389009_2_alg».proof.Proof.Gen.Pre_finite_inputs
import proofs.«165741_j9929964389009_2_alg».proof.Proof.Blocks
import proofs.«165741_j9929964389009_2_alg».proof.Proof.Reference

noncomputable section

namespace Cert.Proof

open Idealize.ShloMosaic Idealize.ShloMosaic.TcCoe Idealize.SL.Sem

/-- The kernel as printed runs to the end, nothing faulting, its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel's result array ends at the cell's function of its arguments
    (its four blocks, Proof/Blocks.lean) and the reference's at its last stage, which is the same function
    (Proof/Reference.lean) of arguments that are the same arrays. -/
theorem algebraic : Cert.algebraic_KernelIdeal_ReferenceIdeal := by
  intro m ρ m' ρ' _ hagree
  refine ⟨fun c => Cert.KernelIdeal.Blocks.result m c, ?_, ?_⟩
  · exact (θ_run Cert.KernelIdeal.defs _ _).mono
      (fun r h c => ⟨(h c).1.trans (Cert.KernelIdeal.Blocks.result_array m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, _, h4, h5, h6, h7, h8, h9, _, _, h12, h13, _⟩ := hagree c
    rw [Cert.ReferenceIdeal.Read.val_main_v68_eq, Cert.ReferenceIdeal.RefValue.array_ref, h0, h1, h2, h4, h5, h6, h7, h8, h9,
      h12, h13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
